-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1250000 32) (main_arg2 : FVec F S128x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1250000 : Shape := ⟨2, ![2, 1250000]⟩
abbrev S128x64 : Shape := ⟨2, ![128, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1250000x65 : Shape := ⟨2, ![1250000, 65]⟩
abbrev S100000x65 : Shape := ⟨2, ![100000, 65]⟩
abbrev S100000x1 : Shape := ⟨2, ![100000, 1]⟩
abbrev S64x64 : Shape := ⟨2, ![64, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 30
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S128x64, .f32⟩
  | .hbm, ⟨3, _⟩ => ⟨S64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .f32⟩
  | .hbm, ⟨18, _⟩ => ⟨S1250000x1, .f32⟩
  | .hbm, ⟨19, _⟩ => ⟨S1250000x65, .f32⟩
  | .hbm, ⟨20, _⟩ => ⟨S_, .f32⟩
  | .hbm, ⟨21, _⟩ => ⟨S100000x65, .f32⟩
  | .hbm, ⟨22, _⟩ => ⟨S1250000x1, .i32⟩
  | .hbm, ⟨23, _⟩ => ⟨S100000x65, .f32⟩
  | .hbm, ⟨24, _⟩ => ⟨S100000x64, .f32⟩
  | .hbm, ⟨25, _⟩ => ⟨S100000x1, .f32⟩
  | .hbm, ⟨26, _⟩ => ⟨S64x64, .f32⟩
  | .hbm, ⟨27, _⟩ => ⟨S64x64, .f32⟩
  | .hbm, ⟨28, _⟩ => ⟨S1x64, .f32⟩
  | .hbm, ⟨29, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x1 : S_.BroadcastsInDim S1250000x1 (![] : Fin 0 → Fin S1250000x1.rank)
  concatenates_S1250000x64_S1250000x1_S1250000x65_d1 : Shape.Concatenates [S1250000x64, S1250000x1] S1250000x65 1
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  slices_S128x64_S64x64_0_0 : S128x64.Slices ![0, 0] S64x64
  slices_S128x64_S64x64_64_0 : S128x64.Slices ![64, 0] S64x64
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1250000x1_S1250000x64_1_0_n_n_0_1_164_wf : GatherDims.WF S100000x64 S1250000x1 S1250000x64 [1] [0] [] [0] [] 1 ![1, 64]
  scatter_S100000x65_S1250000x1_S1250000x65_1_0_0_1_wf : ScatterDims.WF S100000x65 S1250000x1 S1250000x65 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x65_S1250000x1_S1250000x65_1_0_0_1 : ScatterDims S100000x65 S1250000x1 S1250000x65 where
  updateWindowDims := [1]
  insertedWindowDims := [0]
  scatterDimsToOperandDims := [0]
  indexVectorDim := 1
  wf := scatter_S100000x65_S1250000x1_S1250000x65_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S128x64 : Shape := ⟨2, ![128, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S100000x128 : Shape := ⟨2, ![100000, 128]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S128x64, .f32⟩
  | .hbm, ⟨3, _⟩ => ⟨S64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .f32⟩
  | .hbm, ⟨18, _⟩ => ⟨S100000x64, .f32⟩
  | .hbm, ⟨19, _⟩ => ⟨S1250000x1, .i32⟩
  | .hbm, ⟨20, _⟩ => ⟨S100000x64, .f32⟩
  | .hbm, ⟨21, _⟩ => ⟨S_, .f32⟩
  | .hbm, ⟨22, _⟩ => ⟨S1250000, .f32⟩
  | .hbm, ⟨23, _⟩ => ⟨S_, .f32⟩
  | .hbm, ⟨24, _⟩ => ⟨S100000, .f32⟩
  | .hbm, ⟨25, _⟩ => ⟨S1250000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x128, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call1_cst : Ref sig .tc := ⟨.hbm, 41, rfl⟩
abbrev main_call1_v0 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x128_S128x64_S100000x64_1_0_0_1_n_n_wf : DotDims.WF S100000x128 S128x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Aggregate.lean ====
/-
  The mean-aggregation layer as one function of its arrays, index by index, on the exact extended reals.

  There are n = 100000 nodes with 64 features each, and E = 1250000 edges. Edge e carries a feature row g e (64 numbers:
  the source node's features) and a destination d e (a signed integer; an edge whose destination is not a node is ignored).
  For node p and feature k:

      nbr p k  =  0 + ∑ over the edges e with d e = p, of g e k          (the sum of the neighbours' features)
      deg p    =  0 + ∑ over the edges e with d e = p, of 1              (the number of neighbours)
      mean p k =  nbr p k / (deg p if deg p ≠ 0, else 1)

  and the layer's output at node p and output feature q is

      max ( ∑ k < 64, x p k · W k q  +  ∑ k < 64, mean p k · W (64 + k) q  +  b q ,  0 ).

  The weight matrix W is [128, 64]: its first 64 rows multiply the node's own features, its last 64 the neighbour mean.
  One program forms the two 64-term sums separately; the other joins the node's features and the mean into a
  128-long row and takes one 128-term sum. The law between them is that a sum over 128 terms is the sum of its first
  64 terms plus the sum of its last 64 (`sum_halves`), which holds in any commutative monoid and so needs no finiteness
  of the extended reals involved. The constants 0 and 1 stay the float words both programs spell.
-/
import Idealize.ShloMosaic.Lib.ValueIdx
import Idealize.ShloMosaic.PureOps.Ideal

noncomputable section

namespace Cert.Aggregate

open Idealize.ShloMosaic Idealize.ShloMosaic.ValueIdx

/-- The float word of zero, at the exact values. -/
abbrev zeroW : EReal := Ideal.ofBits .f32 0x00000000#32
/-- The float word of one, at the exact values. -/
abbrev oneW : EReal := Ideal.ofBits .f32 0x3F800000#32

/-- The destinations of the edges: one signed 32-bit integer per edge, as a column. -/
abbrev Dest : Type := IVec ⟨2, ![1250000, 1]⟩ 32
/-- The feature rows the edges carry. -/
abbrev EdgeRows : Type := (⟨2, ![1250000, 64]⟩ : Shape).Idx → EReal

/-- The sum of feature k over the edges that arrive at node p. -/
def nbr (d : Dest) (g : EdgeRows) (p : Fin 100000) (k : Fin 64) : EReal :=
  zeroW + ∑ e : Fin 1250000, if (d (ix2 e 0)).toInt = (p.val : ℤ) then g (ix2 e k) else 0

/-- The number of edges that arrive at node p, each counted by the float word of one. -/
def deg (d : Dest) (p : Fin 100000) : EReal :=
  zeroW + ∑ e : Fin 1250000, if (d (ix2 e 0)).toInt = (p.val : ℤ) then oneW else 0

/-- A count made safe to divide by: one where the count is zero, the count itself elsewhere. -/
def safe (c : EReal) : EReal := Scalar.select (Ideal.cmp .oeq c zeroW) oneW c

/-- The mean of feature k over the neighbours of node p. -/
def mean (d : Dest) (g : EdgeRows) (p : Fin 100000) (k : Fin 64) : EReal := Ideal.div (nbr d g p k) (safe (deg d p))

/-- Row k of the weight matrix's upper half. -/
abbrev upper (k : Fin 64) : Fin 128 := ⟨k.val, by have := k.isLt; omega⟩
/-- Row k of the weight matrix's lower half. -/
abbrev lower (k : Fin 64) : Fin 128 := ⟨64 + k.val, by have := k.isLt; omega⟩

/-- The layer at node p and output feature q. -/
def layerAt (x : (⟨2, ![100000, 64]⟩ : Shape).Idx → EReal) (W : (⟨2, ![128, 64]⟩ : Shape).Idx → EReal)
    (b : (⟨1, ![64]⟩ : Shape).Idx → EReal) (d : Dest) (g : EdgeRows) (p : Fin 100000) (q : Fin 64) : EReal :=
  max ((∑ k : Fin 64, x (ix2 p k) * W (ix2 (upper k) q)) + (∑ k : Fin 64, mean d g p k * W (ix2 (lower k) q)) + b (ix1 q)) zeroW

/-- The layer as an array. -/
def layer (x : (⟨2, ![100000, 64]⟩ : Shape).Idx → EReal) (W : (⟨2, ![128, 64]⟩ : Shape).Idx → EReal)
    (b : (⟨1, ![64]⟩ : Shape).Idx → EReal) (d : Dest) (g : EdgeRows) : (⟨2, ![100000, 64]⟩ : Shape).Idx → EReal :=
  fun i => layerAt x W b d g (i 0) (i 1)

theorem layer_apply (x : (⟨2, ![100000, 64]⟩ : Shape).Idx → EReal) (W : (⟨2, ![128, 64]⟩ : Shape).Idx → EReal)
    (b : (⟨1, ![64]⟩ : Shape).Idx → EReal) (d : Dest) (g : EdgeRows) (p : Fin 100000) (q : Fin 64) :
    layer x W b d g (ix2 p q) = layerAt x W b d g p q := rfl

/-- A sum over 128 terms is the sum of its first 64 plus the sum of its last 64, in any commutative monoid. -/
theorem sum_halves {M : Type*} [AddCommMonoid M] (f : Fin 128 → M) :
    ∑ k : Fin 128, f k = (∑ k : Fin 64, f (upper k)) + ∑ k : Fin 64, f (lower k) :=
  Fin.sum_univ_add (a := 64) (b := 64) f

end Cert.Aggregate

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.LibColumnBroadcast.lean ====
/-
  A column broadcast over many columns, read at an index: a `[a, 1]` array broadcast to `[a, b]` reads, at `(p, c)`, the
  operand's row `p` at its one column. (The companion of the library's row form `broadcastTo_1b_ab_apply`; extents general.)
-/
import Idealize.ShloMosaic.Lib.ValueLayout

namespace Idealize.ShloMosaic.ValueIdx

open Idealize.ShloMosaic

variable {α : Type}

/-- A `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBody.lean ====
/-
  What the kernel's body stores, at a position of its block.

  At a grid point the body holds a block of 5000 nodes: their own features X (5000 × 64), the sums of their
  neighbours' features S (5000 × 64), their neighbour counts c (5000 × 1), the two halves T and B of the weight matrix
  (64 × 64 each) and the bias row β (1 × 64). At row r and column q it stores

      max ( ∑ k, X r k · T k q  +  ∑ k, (S r k / safe (c r)) · B k q  +  β q ,  0 ),

  where safe turns a zero count into one. The two matrix products accumulate into zero, so each is the plain sum over
  the 64 shared coordinates; the changes of float format are the identity on exact values; the count's column and the
  bias row are spread over the block, each entry reading its row's count and its column's bias.
-/
import proofs.«151403_j32298154066116_2_alg».proof.Proof.Gen.KernelIdeal.Skeleton
import proofs.«151403_j32298154066116_2_alg».proof.Proof.Aggregate
import proofs.«151403_j32298154066116_2_alg».proof.Proof.LibPlainProduct
import proofs.«151403_j32298154066116_2_alg».proof.Proof.LibColumnBroadcast
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Aggregate

/-- The body's stored value at row r and column q of the block, from the six blocks it loads. -/
theorem stored_apply (v0 : Vec Ideal S5000x1 .f32) (v6 v10 : Vec Ideal S5000x64 .f32) (v13 v16 : Vec Ideal S64x64 .f32)
    (v22 : Vec Ideal S1x64 .f32) (r : Fin 5000) (q : Fin 64) :
    k0_pay1 (F := Ideal) v0 v6 v10 v13 v16 v22 (ix2 r q)
      = max ((∑ k : Fin 64, v10 (ix2 r k) * v13 (ix2 k q))
          + (∑ k : Fin 64, Ideal.div (v6 (ix2 r k)) (safe (v0 (ix2 r 0))) * v16 (ix2 k q)) + v22 (ix2 0 q)) zeroW := by
  unfold k0_pay1
  simp only [maximumf_apply, addf_apply, broadcast_apply]
  refine congrArg₂ max (congrArg₂ (· + ·) (congrArg₂ (· + ·) ?_ ?_) ?_) rfl
  · -- the node's own features against the upper half of the weights
    refine (matmul_zero_plain_apply _ rfl rfl rfl rfl rfl rfl none _ _ r q).trans ?_
    refine Finset.sum_congr rfl fun k _ => ?_
    rw [shapeCast_self]
    rfl
  · -- the neighbour mean against the lower half
    refine (matmul_zero_plain_apply _ rfl rfl rfl rfl rfl rfl none _ _ r q).trans ?_
    refine Finset.sum_congr rfl fun k _ => ?_
    rw [shapeCast_self, shapeCast_self, shapeCast_self]
    refine congrArg₂ (· * ·) ?_ rfl
    show Ideal.div (v6 (ix2 r k)) (broadcastTo S5000x64 _ broadcasts_S5000x1_S5000x64 (ix2 r k)) = _
    refine congrArg (Ideal.div (v6 (ix2 r k))) ?_
    exact broadcastTo_a1_ab_apply _ _ r k
  · -- the bias row, spread down the block
    refine (broadcastTo_1b_ab_apply _ _ r q).trans ?_
    rw [shapeCast_self]

end Cert.KernelIdeal.Body

end
-- ==== Proof.LibScatterRows.lean ====
/-
  An accumulating scatter of rows, read at an index, on the exact extended reals.

  Updates `u` of shape [E, D] are added into an [n, D] array `x`, update row `e` going to the row of `x` that the e-th
  scatter index names (read as a signed integer, not clamped; a row outside `0 ≤ · < n` is dropped). The entry of the
  result at row `p` and column `k` is then

      x (p, k) + ∑ over the update rows e whose index is p, of u (e, k):

  only the update's own column `k` can land in column `k`, so the filter over all [E, D] update positions collapses to
  a filter over the E update rows. The one-axis form adds scalar updates [E] into a vector [n] in the same way.
  Both are general in the extents, in the index width and in the float format.
-/
import Idealize.ShloMosaic.Lib.ValueIdx
import Idealize.ShloMosaic.PureOps.Ideal

noncomputable section

namespace Cert.LibScatterRows

open Idealize.ShloMosaic Idealize.ShloMosaic.ValueIdx

variable {n E D w : ℕ}

/-! ## Rows into a matrix -/

/-- The dimension numbers of a row scatter: the update's axis 1 is the window (the operand's axis 1), the operand's
    axis 0 is the scattered one, and each scatter index is one scalar, on the index array's axis 1. -/
abbrev rowsDims (n E D : ℕ) (wf : ScatterDims.WF (⟨2, ![n, D]⟩ : Shape) ⟨2, ![E, 1]⟩ ⟨2, ![E, D]⟩ [1] [0] [0] 1) :
    ScatterDims ⟨2, ![n, D]⟩ ⟨2, ![E, 1]⟩ ⟨2, ![E, D]⟩ := ⟨[1], [0], [0], 1, wf⟩

/-- On the scattered axis the window of update position (e, k) starts at the e-th scatter index, read signed. -/
theorem rows_start_zero (wf) (idx : IVec ⟨2, ![E, 1]⟩ w) (e : Fin E) (k : Fin D) :
    (rowsDims n E D wf).start (ix2 e k) idx 0 = (idx (ix2 e 0)).toInt := by
  unfold ScatterDims.start
  rw [dif_pos (List.mem_singleton.mpr rfl)]
  congr 2
  funext b
  match b with
  | ⟨0, _⟩ =>
    unfold ScatterDims.siIdx
    rw [dif_neg (by show ¬ (0 : ℕ) = 1; omega)]
    rfl
  | ⟨1, _⟩ =>
    unfold ScatterDims.siIdx
    rw [dif_pos (by show (1 : ℕ) = 1; rfl)]
    rfl

/-- On the window axis the start is zero: no scatter index names it. -/
theorem rows_start_one (wf) (idx : IVec ⟨2, ![E, 1]⟩ w) (e : Fin E) (k : Fin D) :
    (rowsDims n E D wf).start (ix2 e k) idx 1 = 0 := by
  unfold ScatterDims.start
  rw [dif_neg (by show (1 : Fin 2) ∉ ([0] : List (Fin 2)); decide)]

/-- The scattered axis carries no window coordinate. -/
theorem rows_window_zero (wf) (e : Fin E) (k : Fin D) : (rowsDims n E D wf).window (ix2 e k) 0 = 0 := by
  unfold ScatterDims.window
  rw [dif_neg (by show (0 : Fin 2) ∉ ([1] : List (Fin 2)); decide)]

/-- The window axis carries the update's column. -/
theorem rows_window_one (wf) (e : Fin E) (k : Fin D) : (rowsDims n E D wf).window (ix2 e k) 1 = k.val := by
  unfold ScatterDims.window
  rw [dif_pos (by show (1 : Fin 2) ∈ ([1] : List (Fin 2)); decide)]
  rfl

/-- Update position (e, k') lands on entry (p, k) exactly when the e-th scatter index is p and the columns agree. -/
theorem rows_resultIdx_iff (wf) (idx : IVec ⟨2, ![E, 1]⟩ w) (e : Fin E) (k' : Fin D) (p : Fin n) (k : Fin D) :
    (rowsDims n E D wf).resultIdx? (ix2 e k') idx = some (ix2 p k) ↔ ((idx (ix2 e 0)).toInt = (p.val : ℤ) ∧ k' = k) := by
  have hs0 := rows_start_zero (n := n) wf idx e k'
  have hs1 := rows_start_one (n := n) wf idx e k'
  have hw0 := rows_window_zero (n := n) wf e k'
  have hw1 := rows_window_one (n := n) wf e k'
  have hp := p.isLt
  have hk' := k'.isLt
  unfold ScatterDims.resultIdx?
  split
  · rename_i h
    rw [Option.some.injEq]
    constructor
    · intro hf
      have h0 : ((rowsDims n E D wf).start (ix2 e k') idx 0 + ((rowsDims n E D wf).window (ix2 e k') 0 : ℕ)).toNat = p.val :=
        congrArg (fun f : (⟨2, ![n, D]⟩ : Shape).Idx => (f 0).val) hf
      have h1 : ((rowsDims n E D wf).start (ix2 e k') idx 1 + ((rowsDims n E D wf).window (ix2 e k') 1 : ℕ)).toNat = k.val :=
        congrArg (fun f : (⟨2, ![n, D]⟩ : Shape).Idx => (f 1).val) hf
      have g0 := (h 0).1
      rw [hs0, hw0] at h0 g0
      rw [hs1, hw1] at h1
      exact ⟨by omega, Fin.ext (by omega)⟩
    · rintro ⟨hc, rfl⟩
      funext a
      match a with
      | ⟨0, _⟩ =>
        apply Fin.ext
        show ((rowsDims n E D wf).start (ix2 e k') idx 0 + ((rowsDims n E D wf).window (ix2 e k') 0 : ℕ)).toNat = p.val
        rw [hs0, hw0, hc]; omega
      | ⟨1, _⟩ =>
        apply Fin.ext
        show ((rowsDims n E D wf).start (ix2 e k') idx 1 + ((rowsDims n E D wf).window (ix2 e k') 1 : ℕ)).toNat = k'.val
        rw [hs1, hw1]; omega
  · rename_i h
    constructor
    · intro hf; exact absurd hf (by simp)
    · rintro ⟨hc, rfl⟩
      exfalso
      apply h
      intro a
      match a with
      | ⟨0, _⟩ =>
        show 0 ≤ (rowsDims n E D wf).start (ix2 e k') idx 0 + ((rowsDims n E D wf).window (ix2 e k') 0 : ℕ)
          ∧ (rowsDims n E D wf).start (ix2 e k') idx 0 + ((rowsDims n E D wf).window (ix2 e k') 0 : ℕ) < (n : ℤ)
        rw [hs0, hw0, hc]; omega
      | ⟨1, _⟩ =>
        show 0 ≤ (rowsDims n E D wf).start (ix2 e k') idx 1 + ((rowsDims n E D wf).window (ix2 e k') 1 : ℕ)
          ∧ (rowsDims n E D wf).start (ix2 e k') idx 1 + ((rowsDims n E D wf).window (ix2 e k') 1 : ℕ) < (D : ℤ)
        rw [hs1, hw1]; omega

/-- THE ROW SCATTER AT AN ENTRY: the operand's entry plus the sum, over the update rows whose scatter index is the
    entry's row, of the update at that row and the entry's column. -/
theorem scatterAdd_rows_apply {φ : FTy} (wf) (x : FVec Ideal ⟨2, ![n, D]⟩ φ) (idx : IVec ⟨2, ![E, 1]⟩ w)
    (upd : FVec Ideal ⟨2, ![E, D]⟩ φ) (p : Fin n) (k : Fin D) :
    Host.scatterAdd (F := Ideal) (rowsDims n E D wf) x idx upd (ix2 p k)
      = x (ix2 p k) + ∑ e : Fin E, if (idx (ix2 e 0)).toInt = (p.val : ℤ) then upd (ix2 e k) else 0 := by
  show x (ix2 p k) + ∑ j ∈ Finset.univ.filter (fun j => (rowsDims n E D wf).resultIdx? j idx = some (ix2 p k)), upd j = _
  congr 1
  rw [Finset.sum_filter, sum_idx2]
  refine Finset.sum_congr rfl fun e _ => ?_
  simp only [rows_resultIdx_iff]
  by_cases hc : (idx (ix2 e 0)).toInt = (p.val : ℤ)
  · simp only [hc, true_and, if_true]
    rw [Finset.sum_ite_eq' Finset.univ k (fun k' => upd (ix2 e k'))]
    simp
  · simp only [hc, false_and, if_false]
    exact Finset.sum_const_zero

/-! ## Scalars into a vector -/

/-- The dimension numbers of a scalar scatter: the updates have no window axis, the operand's one axis is the
    scattered one, and each scatter index is one scalar, on the index array's axis 1. -/
abbrev scalarsDims (n E : ℕ) (wf : ScatterDims.WF (⟨1, ![n]⟩ : Shape) ⟨2, ![E, 1]⟩ ⟨1, ![E]⟩ [] [0] [0] 1) :
    ScatterDims ⟨1, ![n]⟩ ⟨2, ![E, 1]⟩ ⟨1, ![E]⟩ := ⟨[], [0], [0], 1, wf⟩

/-- A rank-1 index set is its coordinate range, so a sum over it is the sum over the coordinate. -/
theorem sum_idx1 {M : Type*} [AddCommMonoid M] (f : (⟨1, ![E]⟩ : Shape).Idx → M) : ∑ i, f i = ∑ e : Fin E, f (ix1 e) := by
  refine (Equiv.sum_comp (⟨ix1, fun i => i 0, fun _ => rfl, fun i => (eq_ix1 i).symm⟩ : Fin E ≃ (⟨1, ![E]⟩ : Shape).Idx) f).symm

/-- Update e starts at the e-th scatter index, read signed. -/
theorem scalars_start (wf) (idx : IVec ⟨2, ![E, 1]⟩ w) (e : Fin E) :
    (scalarsDims n E wf).start (ix1 e) idx 0 = (idx (ix2 e 0)).toInt := by
  unfold ScatterDims.start
  rw [dif_pos (List.mem_singleton.mpr rfl)]
  congr 2
  funext b
  match b with
  | ⟨0, _⟩ =>
    unfold ScatterDims.siIdx
    rw [dif_neg (by show ¬ (0 : ℕ) = 1; omega)]
    rfl
  | ⟨1, _⟩ =>
    unfold ScatterDims.siIdx
    rw [dif_pos (by show (1 : ℕ) = 1; rfl)]
    rfl

/-- There is no window coordinate. -/
theorem scalars_window (wf) (e : Fin E) : (scalarsDims n E wf).window (ix1 e) 0 = 0 := by
  unfold ScatterDims.window
  rw [dif_neg (by show (0 : Fin 1) ∉ ([] : List (Fin 1)); decide)]

/-- Update e lands on entry p exactly when the e-th scatter index is p. -/
theorem scalars_resultIdx_iff (wf) (idx : IVec ⟨2, ![E, 1]⟩ w) (e : Fin E) (p : Fin n) :
    (scalarsDims n E wf).resultIdx? (ix1 e) idx = some (ix1 p) ↔ (idx (ix2 e 0)).toInt = (p.val : ℤ) := by
  have hs0 := scalars_start (n := n) wf idx e
  have hw0 := scalars_window (n := n) wf e
  have hp := p.isLt
  unfold ScatterDims.resultIdx?
  split
  · rename_i h
    rw [Option.some.injEq]
    constructor
    · intro hf
      have h0 : ((scalarsDims n E wf).start (ix1 e) idx 0 + ((scalarsDims n E wf).window (ix1 e) 0 : ℕ)).toNat = p.val :=
        congrArg (fun f : (⟨1, ![n]⟩ : Shape).Idx => (f 0).val) hf
      have g0 := (h 0).1
      rw [hs0, hw0] at h0 g0
      omega
    · intro hc
      funext a
      match a with
      | ⟨0, _⟩ =>
        apply Fin.ext
        show ((scalarsDims n E wf).start (ix1 e) idx 0 + ((scalarsDims n E wf).window (ix1 e) 0 : ℕ)).toNat = p.val
        rw [hs0, hw0, hc]; omega
  · rename_i h
    constructor
    · intro hf; exact absurd hf (by simp)
    · intro hc
      exfalso
      apply h
      intro a
      match a with
      | ⟨0, _⟩ =>
        show 0 ≤ (scalarsDims n E wf).start (ix1 e) idx 0 + ((scalarsDims n E wf).window (ix1 e) 0 : ℕ)
          ∧ (scalarsDims n E wf).start (ix1 e) idx 0 + ((scalarsDims n E wf).window (ix1 e) 0 : ℕ) < (n : ℤ)
        rw [hs0, hw0, hc]; omega

/-- THE SCALAR SCATTER AT AN ENTRY: the operand's entry plus the sum of the updates whose scatter index is the entry. -/
theorem scatterAdd_scalars_apply {φ : FTy} (wf) (x : FVec Ideal ⟨1, ![n]⟩ φ) (idx : IVec ⟨2, ![E, 1]⟩ w)
    (upd : FVec Ideal ⟨1, ![E]⟩ φ) (p : Fin n) :
    Host.scatterAdd (F := Ideal) (scalarsDims n E wf) x idx upd (ix1 p)
      = x (ix1 p) + ∑ e : Fin E, if (idx (ix2 e 0)).toInt = (p.val : ℤ) then upd (ix1 e) else 0 := by
  show x (ix1 p) + ∑ j ∈ Finset.univ.filter (fun j => (scalarsDims n E wf).resultIdx? j idx = some (ix1 p)), upd j = _
  congr 1
  rw [Finset.sum_filter, sum_idx1]
  refine Finset.sum_congr rfl fun e _ => ?_
  simp only [scalars_resultIdx_iff]

end Cert.LibScatterRows

end
-- ==== Proof.LibConcatCols.lean ====
/-
  Two arrays joined side by side, read at an index given by its coordinates.

  An [a, b1] array and an [a, b2] array joined along the column axis give an [a, b] array (b = b1 + b2) whose
  entry at row p and column k is the first array's entry (p, k) when k < b1, and the second array's entry
  (p, k - b1) otherwise.
-/
import Idealize.ShloMosaic.Lib.Pipeline.Value
import Idealize.ShloMosaic.Lib.ValueIdx

noncomputable section

namespace Cert.LibConcatCols

open Idealize.ShloMosaic Idealize.ShloMosaic.ValueIdx

variable {α : Type}

/-- A column of the joined array that lies in the first piece reads the first piece at the same row and column. -/
theorem concatCols_left {a b1 b2 b : ℕ} (x₁ : (⟨2, ![a, b1]⟩ : Shape).Idx → α) (x₂ : (⟨2, ![a, b2]⟩ : Shape).Idx → α)
    (h : Shape.Concatenates [(⟨2, ![a, b1]⟩ : Shape), ⟨2, ![a, b2]⟩] ⟨2, ![a, b]⟩ 1) (p : Fin a) (k : Fin b)
    (hk : k.val < b1) :
    concatenate ⟨2, ![a, b]⟩ 1 [⟨⟨2, ![a, b1]⟩, x₁⟩, ⟨⟨2, ![a, b2]⟩, x₂⟩] h (ix2 p k) = x₁ (ix2 p ⟨k.val, hk⟩) := by
  refine concatenate_pair_apply_left (1 : Fin 2) x₁ x₂ h (ix2 p k) rfl (ix2 p ⟨k.val, hk⟩) fun ax => ?_
  match ax with
  | ⟨0, _⟩ => rfl
  | ⟨1, _⟩ => rfl

/-- A column of the joined array that lies past the first piece reads the second piece at the same row, the
    column less the first piece's width. -/
theorem concatCols_right {a b1 b2 b : ℕ} (x₁ : (⟨2, ![a, b1]⟩ : Shape).Idx → α) (x₂ : (⟨2, ![a, b2]⟩ : Shape).Idx → α)
    (h : Shape.Concatenates [(⟨2, ![a, b1]⟩ : Shape), ⟨2, ![a, b2]⟩] ⟨2, ![a, b]⟩ 1) (p : Fin a) (k : Fin b)
    (hk : b1 ≤ k.val) (hk2 : k.val - b1 < b2) :
    concatenate ⟨2, ![a, b]⟩ 1 [⟨⟨2, ![a, b1]⟩, x₁⟩, ⟨⟨2, ![a, b2]⟩, x₂⟩] h (ix2 p k) = x₂ (ix2 p ⟨k.val - b1, hk2⟩) := by
  refine concatenate_pair_apply_right (1 : Fin 2) x₁ x₂ h (ix2 p k) rfl rfl (ix2 p ⟨k.val - b1, hk2⟩) (fun ax hax => ?_) ?_
  · match ax with
    | ⟨0, _⟩ => rfl
    | ⟨1, _⟩ => exact absurd rfl hax
  · show k.val - b1 + b1 = k.val
    omega

/-- The two arrays side by side as one function of the row and the column. -/
def catCols {a b1 b2 b : ℕ} (hb : b = b1 + b2) (x₁ : (⟨2, ![a, b1]⟩ : Shape).Idx → α) (x₂ : (⟨2, ![a, b2]⟩ : Shape).Idx → α)
    (p : Fin a) (k : Fin b) : α :=
  if hk : k.val < b1 then x₁ (ix2 p ⟨k.val, hk⟩) else x₂ (ix2 p ⟨k.val - b1, by have := k.isLt; omega⟩)

/-- The joined array is that function. -/
theorem concatCols_apply {a b1 b2 b : ℕ} (hb : b = b1 + b2) (x₁ : (⟨2, ![a, b1]⟩ : Shape).Idx → α)
    (x₂ : (⟨2, ![a, b2]⟩ : Shape).Idx → α)
    (h : Shape.Concatenates [(⟨2, ![a, b1]⟩ : Shape), ⟨2, ![a, b2]⟩] ⟨2, ![a, b]⟩ 1) (p : Fin a) (k : Fin b) :
    concatenate ⟨2, ![a, b]⟩ 1 [⟨⟨2, ![a, b1]⟩, x₁⟩, ⟨⟨2, ![a, b2]⟩, x₂⟩] h (ix2 p k) = catCols hb x₁ x₂ p k := by
  unfold catCols
  by_cases hk : k.val < b1
  · rw [dif_pos hk]; exact concatCols_left x₁ x₂ h p k hk
  · rw [dif_neg hk]; exact concatCols_right x₁ x₂ h p k (Nat.le_of_not_lt hk) _

end Cert.LibConcatCols

end
-- ==== Proof.KernelHost.lean ====
/-
  What the kernel's region finds in the arrays its windows read.

  Before the region the program forms, from the node features x and the edge list (two rows of E integers: sources,
  destinations): the destinations as a column; the source nodes' feature rows, one per edge (a gather, sources below
  zero wrapped once by the node count); those rows with a column of ones joined on, [E, 65]; and the accumulating
  scatter of these 65-wide rows into a zero [n, 65] array by destination. Its first 64 columns are the sums of the
  neighbours' features, its last column the neighbour counts: at node p, column k < 64 holds `nbr p k` and column 64
  holds `deg p` (a column of the joined rows lands only in its own column, and column 64 of every joined row is one).
  The weight matrix is cut into its upper and lower 64 rows and the bias is laid out as one row.
-/
import proofs.«151403_j32298154066116_2_alg».proof.Proof.Gen.KernelIdeal.Frame
import proofs.«151403_j32298154066116_2_alg».proof.Proof.Aggregate
import proofs.«151403_j32298154066116_2_alg».proof.Proof.LibScatterRows
import proofs.«151403_j32298154066116_2_alg».proof.Proof.LibConcatCols
import Idealize.ShloMosaic.Lib.StableHlo.Run
import Idealize.ShloMosaic.Lib.Pipeline.Value
import Idealize.ShloMosaic.PureOps.Ideal

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.Aggregate Cert.LibScatterRows Cert.LibConcatCols

/-! ## The host operations' terms -/

/-- The edges' sources: the edge list's row 0. -/
def src (ei : S2x1250000.Idx → BitVec 32) : IVec S1250000 32 :=
  shapeCast S1250000 (extractStridedSlice S1x1250000 ![0, 0] ei slices_S2x1250000_S1x1250000_0_0) shapeCasts_S1x1250000_S1250000

/-- The edges' destinations, as a column: the edge list's row 1. -/
def dest (ei : S2x1250000.Idx → BitVec 32) : IVec S1250000x1 32 :=
  broadcastInDim S1250000x1 ![0] bcast_S1250000_S1250000x1_0
    (shapeCast S1250000 (extractStridedSlice S1x1250000 ![1, 0] ei slices_S2x1250000_S1x1250000_1_0) shapeCasts_S1x1250000_S1250000)

/-- The feature rows the edges carry: the source nodes' rows, a source below zero wrapped once by the node count. -/
def rows (x : FVec Ideal S100000x64 .f32) (ei : S2x1250000.Idx → BitVec 32) : FVec Ideal S1250000x64 .f32 :=
  Host.gather gather_S100000x64_S1250000x1_S1250000x64_1_0_n_n_0_1_164 x
    (broadcastInDim S1250000x1 ![0] bcast_S1250000_S1250000x1_0
      (select (cmpi .slt (src ei) (broadcastInDim S1250000 ![] bcast_S_S1250000 (constantI S_ 32 0#32)))
        (addi (src ei) (broadcastInDim S1250000 ![] bcast_S_S1250000 (constantI S_ 32 100000#32))) (src ei)))

/-- The accumulated [n, 65] array: the edges' rows, each with a one joined on, added up by destination. -/
def acc (x : FVec Ideal S100000x64 .f32) (ei : S2x1250000.Idx → BitVec 32) : FVec Ideal S100000x65 .f32 :=
  Host.scatterAdd scatter_S100000x65_S1250000x1_S1250000x65_1_0_0_1
    (broadcastInDim S100000x65 ![] bcast_S_S100000x65 (constant (F := Ideal) S_ .f32 0x00000000#32)) (dest ei)
    (concatenate S1250000x65 1 [⟨S1250000x64, rows x ei⟩,
      ⟨S1250000x1, broadcastInDim S1250000x1 ![] bcast_S_S1250000x1 (constant (F := Ideal) S_ .f32 0x3F800000#32)⟩]
      concatenates_S1250000x64_S1250000x1_S1250000x65_d1)

variable (m : (ℓ : Loc nD τ sig) → Buf (Elt Ideal) ℓ)

/-- The neighbour sums the region finds: the accumulated array's first 64 columns. -/
theorem found_sums (c : Dev nD) : (V m c main_v16 : S100000x64.Idx → EReal)
    = extractStridedSlice S100000x64 ![0, 0] (acc (m ((c : Thread nD τ).loc main_arg0)) (m ((c : Thread nD τ).loc main_arg1)))
        slices_S100000x65_S100000x64_0_0 := by
  dsimp only [Gen.V, Gen.hostOps0]; after_results <;> rfl

/-- The neighbour counts the region finds: the accumulated array's last column. -/
theorem found_counts (c : Dev nD) : (V m c main_v17 : S100000x1.Idx → EReal)
    = extractStridedSlice S100000x1 ![0, 64] (acc (m ((c : Thread nD τ).loc main_arg0)) (m ((c : Thread nD τ).loc main_arg1)))
        slices_S100000x65_S100000x1_0_64 := by
  dsimp only [Gen.V, Gen.hostOps0]; after_results <;> rfl

/-- The upper half of the weights. -/
theorem found_upper (c : Dev nD) : (V m c main_v18 : S64x64.Idx → EReal)
    = extractStridedSlice S64x64 ![0, 0] (m ((c : Thread nD τ).loc main_arg2)) slices_S128x64_S64x64_0_0 := by
  dsimp only [Gen.V, Gen.hostOps0]; after_results <;> rfl

/-- The lower half of the weights. -/
theorem found_lower (c : Dev nD) : (V m c main_v19 : S64x64.Idx → EReal)
    = extractStridedSlice S64x64 ![64, 0] (m ((c : Thread nD τ).loc main_arg2)) slices_S128x64_S64x64_64_0 := by
  dsimp only [Gen.V, Gen.hostOps0]; after_results <;> rfl

/-- The bias as one row. -/
theorem found_bias (c : Dev nD) : (V m c main_v20 : S1x64.Idx → EReal)
    = shapeCast S1x64 (m ((c : Thread nD τ).loc main_arg3)) shapeCasts_S64_S1x64 := by
  dsimp only [Gen.V, Gen.hostOps0]; after_results <;> rfl

/-! ## Read at an index -/

/-- An entry of the accumulated array: zero plus the sum, over the edges arriving at node p, of the joined row's column. -/
theorem acc_apply (x : FVec Ideal S100000x64 .f32) (ei : S2x1250000.Idx → BitVec 32) (p : Fin 100000) (k : Fin 65) :
    acc x ei (ix2 p k) = zeroW + ∑ e : Fin 1250000, if (dest ei (ix2 e 0)).toInt = (p.val : ℤ)
      then catCols (b1 := 64) (b2 := 1) rfl (rows x ei) (broadcastInDim S1250000x1 ![] bcast_S_S1250000x1 (constant (F := Ideal) S_ .f32 0x3F800000#32)) e k else 0 := by
  unfold acc
  refine (scatterAdd_rows_apply _ _ _ _ p k).trans ?_
  refine congrArg₂ (· + ·) rfl (Finset.sum_congr rfl fun e _ => ?_)
  rw [concatCols_apply (b1 := 64) (b2 := 1) rfl]

/-- The first 64 columns are the sums of the neighbours' features. -/
theorem sums_apply (x : FVec Ideal S100000x64 .f32) (ei : S2x1250000.Idx → BitVec 32) (p : Fin 100000) (k : Fin 64) :
    extractStridedSlice S100000x64 ![0, 0] (acc x ei) slices_S100000x65_S100000x64_0_0 (ix2 p k) = nbr (dest ei) (rows x ei) p k := by
  have hk := k.isLt
  refine (extractStridedSlice_apply ![0, 0] (acc x ei) slices_S100000x65_S100000x64_0_0 (ix2 p k)
    (ix2 p (⟨k.val, by omega⟩ : Fin 65)) (fun a => match a with
      | ⟨0, _⟩ => by show p.val = 0 + p.val; omega
      | ⟨1, _⟩ => by show k.val = 0 + k.val; omega)).trans ?_
  rw [acc_apply]
  unfold nbr
  refine congrArg₂ (· + ·) rfl (Finset.sum_congr rfl fun e _ => ?_)
  unfold catCols
  rw [dif_pos (show k.val < 64 from hk)]

/-- The last column is the neighbour count. -/
theorem counts_apply (x : FVec Ideal S100000x64 .f32) (ei : S2x1250000.Idx → BitVec 32) (p : Fin 100000) :
    extractStridedSlice S100000x1 ![0, 64] (acc x ei) slices_S100000x65_S100000x1_0_64 (ix2 p (0 : Fin 1)) = deg (dest ei) p := by
  refine (extractStridedSlice_apply ![0, 64] (acc x ei) slices_S100000x65_S100000x1_0_64 (ix2 p (0 : Fin 1))
    (ix2 p (⟨64, by omega⟩ : Fin 65)) (fun a => match a with
      | ⟨0, _⟩ => by show p.val = 0 + p.val; omega
      | ⟨1, _⟩ => by show 64 = 64 + 0; omega)).trans ?_
  rw [acc_apply]
  unfold deg
  refine congrArg₂ (· + ·) rfl (Finset.sum_congr rfl fun e _ => ?_)
  unfold catCols
  rw [dif_neg (show ¬ (64 : ℕ) < 64 by omega)]
  rfl

/-- The upper half of the weights at (k, q) is the matrix at (k, q). -/
theorem upper_apply (W : FVec Ideal S128x64 .f32) (k q : Fin 64) :
    extractStridedSlice S64x64 ![0, 0] W slices_S128x64_S64x64_0_0 (ix2 k q) = W (ix2 (upper k) q) :=
  extractStridedSlice_apply ![0, 0] W slices_S128x64_S64x64_0_0 (ix2 k q) (ix2 (upper k) q) (fun a => match a with
    | ⟨0, _⟩ => by show k.val = 0 + k.val; omega
    | ⟨1, _⟩ => by show q.val = 0 + q.val; omega)

/-- The lower half of the weights at (k, q) is the matrix at (64 + k, q). -/
theorem lower_apply (W : FVec Ideal S128x64 .f32) (k q : Fin 64) :
    extractStridedSlice S64x64 ![64, 0] W slices_S128x64_S64x64_64_0 (ix2 k q) = W (ix2 (lower k) q) :=
  extractStridedSlice_apply ![64, 0] W slices_S128x64_S64x64_64_0 (ix2 k q) (ix2 (lower k) q) (fun a => match a with
    | ⟨0, _⟩ => by show 64 + k.val = 64 + k.val; rfl
    | ⟨1, _⟩ => by show q.val = 0 + q.val; omega)

/-- The bias row at column q is the bias at q. -/
theorem bias_apply (b : FVec Ideal S64 .f32) (q : Fin 64) :
    shapeCast S1x64 b shapeCasts_S64_S1x64 (ix2 (0 : Fin 1) q) = b (ix1 q) :=
  shapeCast_apply b shapeCasts_S64_S1x64 (ix2 (0 : Fin 1) q) (ix1 q) (by
    rewrite [Shape.rowMajor_val_one, Shape.rowMajor_val_two]
    show q.val = 0 * 64 + q.val
    omega)

end Cert.KernelIdeal.HostSide

end
-- ==== Proof.KernelArray.lean ====
/-
  From the kernel's blocks to its whole result array.

  The grid has 20 points; point t holds nodes 5000·t … 5000·t + 4999. Its blocks of the node features, of the neighbour
  sums and of the neighbour counts are those rows of the three arrays; the weight halves and the bias row are the same
  whole arrays at every point. So row r of what point t writes back is the layer at node 5000·t + r: block t of the one
  whole-array function `layer`. Every node lies in the block of the point (its number divided by 5000), the 20 blocks
  cover the result array, and the array the run leaves is `layer` of the argument arrays.
-/
import proofs.«151403_j32298154066116_2_alg».proof.Proof.Gen.KernelIdeal.Value
import proofs.«151403_j32298154066116_2_alg».proof.Proof.KernelBody
import proofs.«151403_j32298154066116_2_alg».proof.Proof.KernelHost
import proofs.«151403_j32298154066116_2_alg».proof.Proof.Aggregate

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Aggregate Cert.KernelIdeal.HostSide

variable (m : (ℓ : Loc nD τ sig) → Buf (Elt Ideal) ℓ) (ρ : Dev nD → PrngReg)

theorem zero_offsets : (![0, 0] : Fin 2 → Nat) = fun _ => 0 := funext fun a => by fin_cases a <;> rfl

/-- The grid has 20 points. -/
theorem point_lt : ∀ t : Fin cfg0.N, t.val < 20 := (by decide +kernel : ∀ t : Fin grid0.N, t.val < 20)

/-- The printed index maps, decided over the grid: the three node-indexed inputs and the output take block t at point
    t, the weight halves and the bias their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The node that row r of point t's block is. -/
def node (t : Fin cfg0.N) (r : Fin 5000) : Fin 100000 :=
  ⟨t.val * 5000 + r.val, by have := point_lt t; have := r.isLt; omega⟩

/-! ## Where a block's positions sit in their arrays (a block's coordinate is index × size + the coordinate inside) -/

theorem at_features (t : Fin cfg0.N) (r : Fin 5000) (k : Fin 64) :
    ((cfg0.win 0).blk t).view.emb (ix2 r k) = ix2 (node t r) k := by
  obtain ⟨e0, e1, -⟩ := index_facts t
  funext a; apply Fin.ext
  match a with
  | ⟨0, _⟩ => show win0_0.index t (0 : Fin 2) * 5000 + 1 * r.val = t.val * 5000 + r.val; omega
  | ⟨1, _⟩ => show win0_0.index t (1 : Fin 2) * 64 + 1 * k.val = k.val; omega

theorem at_sums (t : Fin cfg0.N) (r : Fin 5000) (k : Fin 64) :
    ((cfg0.win 1).blk t).view.emb (ix2 r k) = ix2 (node t r) k := by
  obtain ⟨-, -, e0, e1, -⟩ := index_facts t
  funext a; apply Fin.ext
  match a with
  | ⟨0, _⟩ => show win0_1.index t (0 : Fin 2) * 5000 + 1 * r.val = t.val * 5000 + r.val; omega
  | ⟨1, _⟩ => show win0_1.index t (1 : Fin 2) * 64 + 1 * k.val = k.val; omega

theorem at_counts (t : Fin cfg0.N) (r : Fin 5000) :
    ((cfg0.win 2).blk t).view.emb (ix2 r (0 : Fin 1)) = ix2 (node t r) (0 : Fin 1) := by
  obtain ⟨-, -, -, -, e0, e1, -⟩ := index_facts t
  funext a; apply Fin.ext
  match a with
  | ⟨0, _⟩ => show win0_2.index t (0 : Fin 2) * 5000 + 1 * r.val = t.val * 5000 + r.val; omega
  | ⟨1, _⟩ => show win0_2.index t (1 : Fin 2) * 1 + 1 * 0 = 0; omega

theorem at_upper (t : Fin cfg0.N) (k q : Fin 64) : ((cfg0.win 3).blk t).view.emb (ix2 k q) = ix2 k q := by
  obtain ⟨-, -, -, -, -, -, e0, e1, -⟩ := index_facts t
  funext a; apply Fin.ext
  match a with
  | ⟨0, _⟩ => show win0_3.index t (0 : Fin 2) * 64 + 1 * k.val = k.val; omega
  | ⟨1, _⟩ => show win0_3.index t (1 : Fin 2) * 64 + 1 * q.val = q.val; omega

theorem at_lower (t : Fin cfg0.N) (k q : Fin 64) : ((cfg0.win 4).blk t).view.emb (ix2 k q) = ix2 k q := by
  obtain ⟨-, -, -, -, -, -, -, -, e0, e1, -⟩ := index_facts t
  funext a; apply Fin.ext
  match a with
  | ⟨0, _⟩ => show win0_4.index t (0 : Fin 2) * 64 + 1 * k.val = k.val; omega
  | ⟨1, _⟩ => show win0_4.index t (1 : Fin 2) * 64 + 1 * q.val = q.val; omega

theorem at_bias (t : Fin cfg0.N) (q : Fin 64) : ((cfg0.win 5).blk t).view.emb (ix2 (0 : Fin 1) q) = ix2 (0 : Fin 1) q := by
  obtain ⟨-, -, -, -, -, -, -, -, -, -, e0, e1, -⟩ := index_facts t
  funext a; apply Fin.ext
  match a with
  | ⟨0, _⟩ => show win0_5.index t (0 : Fin 2) * 1 + 1 * 0 = 0; omega
  | ⟨1, _⟩ => show win0_5.index t (1 : Fin 2) * 64 + 1 * q.val = q.val; omega

theorem at_result (t : Fin cfg0.N) (r : Fin 5000) (q : Fin 64) :
    ((cfg0.win 6).blk t).view.emb (ix2 r q) = ix2 (node t r) q := by
  obtain ⟨-, -, -, -, -, -, -, -, -, -, -, -, e0, e1⟩ := index_facts t
  funext a; apply Fin.ext
  match a with
  | ⟨0, _⟩ => show win0_6.index t (0 : Fin 2) * 5000 + 1 * r.val = t.val * 5000 + r.val; omega
  | ⟨1, _⟩ => show win0_6.index t (1 : Fin 2) * 64 + 1 * q.val = q.val; omega

/-! ## The input blocks at a position, in terms of the argument arrays -/

theorem block_features (c : Dev nD) (t : Fin cfg0.N) (r : Fin 5000) (k : Fin 64) :
    iblk m c 0 t (ix2 r k) = (m ((c : Thread nD τ).loc main_arg0)) (ix2 (node t r) k) := by
  show V m c main_arg0 (((cfg0.win 0).blk t).view.emb (ix2 r k)) = _
  rw [at_features, V_main_arg0]

/-- Window 1's block of ANY [n, 64] array, at a position, is the array at the node's row. -/
theorem read_sums_block (A : S100000x64.Idx → EReal) (t : Fin cfg0.N) (r : Fin 5000) (k : Fin 64) :
    ((cfg0.win 1).blk t).view.read (Elt Ideal) A (ix2 r k) = A (ix2 (node t r) k) := by
  show A (((cfg0.win 1).blk t).view.emb (ix2 r k)) = _
  rw [at_sums]

theorem block_sums (c : Dev nD) (t : Fin cfg0.N) (r : Fin 5000) (k : Fin 64) :
    iblk m c 1 t (ix2 r k) = nbr (dest (m ((c : Thread nD τ).loc main_arg1))) (rows (m ((c : Thread nD τ).loc main_arg0)) (m ((c : Thread nD τ).loc main_arg1))) (node t r) k := by
  have hV : (V m c (Pipeline.arrRef spec0 1) : S100000x64.Idx → EReal) = _ := found_sums m c
  unfold iblk
  rw [hV]
  exact (read_sums_block _ t r k).trans (sums_apply _ _ (node t r) k)

/-- Window 2's block of ANY [n, 1] array, at a position, is the array at the node's row. -/
theorem read_counts_block (A : S100000x1.Idx → EReal) (t : Fin cfg0.N) (r : Fin 5000) :
    ((cfg0.win 2).blk t).view.read (Elt Ideal) A (ix2 r (0 : Fin 1)) = A (ix2 (node t r) (0 : Fin 1)) := by
  show A (((cfg0.win 2).blk t).view.emb (ix2 r (0 : Fin 1))) = _
  rw [at_counts]

theorem block_counts (c : Dev nD) (t : Fin cfg0.N) (r : Fin 5000) :
    iblk m c 2 t (ix2 r (0 : Fin 1)) = deg (dest (m ((c : Thread nD τ).loc main_arg1))) (node t r) := by
  have hV : (V m c (Pipeline.arrRef spec0 2) : S100000x1.Idx → EReal) = _ := found_counts m c
  unfold iblk
  rw [hV]
  exact (read_counts_block _ t r).trans (counts_apply _ _ (node t r))

theorem block_upper (c : Dev nD) (t : Fin cfg0.N) (k q : Fin 64) :
    iblk m c 3 t (ix2 k q) = (m ((c : Thread nD τ).loc main_arg2)) (ix2 (upper k) q) := by
  show (V m c main_v18 : S64x64.Idx → EReal) (((cfg0.win 3).blk t).view.emb (ix2 k q)) = _
  rw [at_upper, found_upper, upper_apply]

theorem block_lower (c : Dev nD) (t : Fin cfg0.N) (k q : Fin 64) :
    iblk m c 4 t (ix2 k q) = (m ((c : Thread nD τ).loc main_arg2)) (ix2 (lower k) q) := by
  show (V m c main_v19 : S64x64.Idx → EReal) (((cfg0.win 4).blk t).view.emb (ix2 k q)) = _
  rw [at_lower, found_lower, lower_apply]

theorem block_bias (c : Dev nD) (t : Fin cfg0.N) (q : Fin 64) :
    iblk m c 5 t (ix2 (0 : Fin 1) q) = (m ((c : Thread nD τ).loc main_arg3)) (ix1 q) := by
  show (V m c main_v20 : S1x64.Idx → EReal) (((cfg0.win 5).blk t).view.emb (ix2 (0 : Fin 1) q)) = _
  rw [at_bias, found_bias, bias_apply]

/-! ## What a point writes back, the cover, the whole array -/

/-- WHAT POINT t WRITES BACK is block t of the layer of the argument arrays. -/
theorem flushed_eq (c : Dev nD) (t : Fin cfg0.N) :
    (dats m 0 c).flushed 6 t = ((cfg0.win 6).blk t).view.read (Elt Ideal) (layer (m ((c : Thread nD τ).loc main_arg0)) (m ((c : Thread nD τ).loc main_arg2)) (m ((c : Thread nD τ).loc main_arg3)) (dest (m ((c : Thread nD τ).loc main_arg1))) (rows (m ((c : Thread nD τ).loc main_arg0)) (m ((c : Thread nD τ).loc main_arg1)))) := by
  rw [Value.flushed6]
  unfold out0_6
  rw [View.canon_unit_zero zero_offsets]
  simp only [View.ld_unit_zero (S := S5000x64) zero_offsets, View.ld_unit_zero (S := S5000x1) zero_offsets,
    View.ld_unit_zero (S := S64x64) zero_offsets, View.ld_unit_zero (S := S1x64) zero_offsets]
  refine funext fun (j : S5000x64.Idx) => ?_
  obtain ⟨r, q, rfl⟩ : ∃ (r : Fin 5000) (q : Fin 64), j = ix2 r q := ⟨j 0, j 1, eq_ix2 j⟩
  refine (Body.stored_apply _ _ _ _ _ _ r q).trans ?_
  show _ = (layer (m ((c : Thread nD τ).loc main_arg0)) (m ((c : Thread nD τ).loc main_arg2)) (m ((c : Thread nD τ).loc main_arg3)) (dest (m ((c : Thread nD τ).loc main_arg1))) (rows (m ((c : Thread nD τ).loc main_arg0)) (m ((c : Thread nD τ).loc main_arg1)))) (((cfg0.win 6).blk t).view.emb (ix2 r q))
  rw [at_result, layer_apply]
  unfold layerAt mean
  refine congrArg₂ max (congrArg₂ (· + ·) (congrArg₂ (· + ·) (Finset.sum_congr rfl fun k _ => ?_)
    (Finset.sum_congr rfl fun k _ => ?_)) ?_) rfl
  · exact congrArg₂ (· * ·) (block_features m c t r k) (block_upper m c t k q)
  · exact congrArg₂ (· * ·) (congrArg₂ Ideal.div (block_sums m c t r k) (congrArg safe (block_counts m c t r))) (block_lower m c t k q)
  · exact block_bias m c t q

/-- An index of the result array is in point t's block iff each coordinate is in the block's range on its axis. -/
theorem mem_block (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v21).slice (win0_6.rect t)).set ↔ _
  rw [View.set_slice_whole, Rect.mem_set_unit]
  exact Iff.rfl

/-- Every index of the result array lies in the block of the point its node number, divided by 5000, names. -/
theorem covered (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨-, -, -, -, -, -, -, -, -, -, -, -, e0, e1⟩ := index_facts t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 64 ≤ (i 1).val ∧ (i 1).val < win0_6.index t (1 : Fin 2) * 64 + 64
    omega

/-- THE RESULT ARRAY after the run is the layer of the argument arrays. -/
theorem final (c : Dev nD) : (dats m 0 c).arrAt 6 cfg0.N = (layer (m ((c : Thread nD τ).loc main_arg0)) (m ((c : Thread nD τ).loc main_arg2)) (m ((c : Thread nD τ).loc main_arg3)) (dest (m ((c : Thread nD τ).loc main_arg1))) (rows (m ((c : Thread nD τ).loc main_arg0)) (m ((c : Thread nD τ).loc main_arg1)))) :=
  (dats m 0 c).arrAt_eq_of_cover 6 _ (fun t _ => flushed_eq m c t) covered

/-- The kernel's run: the result at the layer of the arguments, the arguments unchanged. -/
theorem run : θ_run defs (onTc (τ := τ) (main (F := Ideal))) ⟨m, fun _ => 0, ρ⟩ fun r => ∀ c : Dev nD,
      r.2.mem ((c : Thread nD τ).loc main_v21) = (layer (m ((c : Thread nD τ).loc main_arg0)) (m ((c : Thread nD τ).loc main_arg2)) (m ((c : Thread nD τ).loc main_arg3)) (dest (m ((c : Thread nD τ).loc main_arg1))) (rows (m ((c : Thread nD τ).loc main_arg0)) (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.LibHostColumn.lean ====
/-
  Host-side row and column forms of the layout operations, read at an index given by its coordinates.

  A vector of length b becomes the one-row array [1, b] (the vector laid along axis 1); the one-row array is
  repeated down a rows to [a, b]; and a column [a, 1] is re-laid as the vector of length a. Each lemma reads the
  result at its coordinates: the row forms keep the column coordinate, the column form keeps the row coordinate.
-/
import Idealize.ShloMosaic.Lib.Pipeline.Value
import Idealize.ShloMosaic.Lib.ValueIdx

noncomputable section

namespace Cert.LibHostColumn

open Idealize.ShloMosaic Idealize.ShloMosaic.ValueIdx

variable {α : Type}

/-- A vector of length b laid along axis 1 of [1, b]: the entry at (z, c) is the vector's entry c. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (z : Fin 1) (c : Fin b) :
    broadcastInDim ⟨2, ![1, b]⟩ (![1] : Fin 1 → Fin 2) h x (ix2 z c) = x (ix1 c) := by
  refine broadcastInDim_apply _ h x (ix2 z c) (ix1 c) fun ax => ?_
  match ax with
  | ⟨0, _⟩ =>
    show c.val = if b = 1 then 0 else c.val
    split
    · have := c.isLt; omega
    · rfl

/-- A one-row array [1, b] repeated down a rows (axes kept in place): the entry at (p, c) is the row's entry c. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column [a, 1] re-laid as the vector of length a: the entry i is the column's entry of row i (the
    row-major position of (i, 0) in [a, 1] is i * 1 + 0 = i). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibHostColumn

end
-- ==== Proof.LibHostColumn2.lean ====
/-
  Host-side column forms of the spreading operation, read at an index given by its coordinates.

  A vector of length a becomes the column [a, 1] (the vector laid down axis 0); the column is then spread along
  its unit axis to [a, b], every entry of row p being the vector's entry p. Each lemma reads the result at its
  coordinates: both keep the row coordinate.
-/
import Idealize.ShloMosaic.Lib.Pipeline.Value
import Idealize.ShloMosaic.Lib.ValueIdx

noncomputable section

namespace Cert.LibHostColumn2

open Idealize.ShloMosaic Idealize.ShloMosaic.ValueIdx

variable {α : Type}

/-- A vector of length a laid down axis 0 of the column [a, 1]: the entry at (i, z) is the vector's entry i. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (z : Fin 1) :
    broadcastInDim ⟨2, ![a, 1]⟩ (![0] : Fin 1 → Fin 2) h x (ix2 i z) = x (ix1 i) := by
  refine broadcastInDim_apply _ h x (ix2 i z) (ix1 i) fun ax => ?_
  match ax with
  | ⟨0, _⟩ =>
    show i.val = if a = 1 then 0 else i.val
    split
    · have := i.isLt; omega
    · rfl

/-- A column [a, 1] spread along its unit axis to [a, b] (axes kept in place): the entry at (p, c) is the column's
    entry of row p, whatever the column coordinate c. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: a vector of length a spread to [a, b] through the column [a, 1] has, at (p, c), the
    vector's entry p. -/
theorem broadcastInDim_a_ab_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p (0 : Fin 1))

end Cert.LibHostColumn2

end
-- ==== Proof.ReferenceValue.lean ====
/-
  The reference computes the layer.

  The reference adds the edges' feature rows up by destination (64 columns) and, separately, adds a one per edge up by
  destination (the neighbour count); it replaces a zero count by one, divides each node's sums by its count, joins the
  node's own 64 features and the 64 means into one row of 128, multiplies by the whole [128, 64] weight matrix, adds the
  bias and takes the maximum with zero. Entry (p, q) of the product is a sum over 128 terms; its first 64 terms are
  x p k · W k q and its last 64 are mean p k · W (64 + k) q, and a 128-term sum is the sum of its two halves: that is
  the layer's two separate 64-term sums.
-/
import proofs.«151403_j32298154066116_2_alg».proof.Proof.RefRead
import proofs.«151403_j32298154066116_2_alg».proof.Proof.Aggregate
import proofs.«151403_j32298154066116_2_alg».proof.Proof.LibScatterRows
import proofs.«151403_j32298154066116_2_alg».proof.Proof.LibConcatCols
import proofs.«151403_j32298154066116_2_alg».proof.Proof.LibHostColumn
import proofs.«151403_j32298154066116_2_alg».proof.Proof.LibHostColumn2
import proofs.«151403_j32298154066116_2_alg».proof.Proof.LibPlainProduct

noncomputable section

namespace Cert.ReferenceIdeal.Whole

open Cert.ReferenceIdeal Cert.ReferenceIdeal.Gen Cert.ReferenceIdeal.ReadP Idealize.ShloMosaic Idealize.ShloMosaic.TcCoe Idealize.SL.Sem
open Idealize.ShloMosaic.ValueIdx Cert.Aggregate Cert.LibScatterRows Cert.LibConcatCols Cert.LibHostColumn Cert.LibHostColumn2

variable (x : FVec Ideal S100000x64 .f32) (ei : S2x1250000.Idx → BitVec 32) (W : FVec Ideal S128x64 .f32) (b : FVec Ideal S64 .f32)

/-- The edges' rows added up by destination: the sums of the neighbours' features. -/
theorem sums_apply (p : Fin 100000) (k : Fin 64) :
    val_main_v13 (F := Ideal) x ei (ix2 p k) = nbr (val_main_v12 (F := Ideal) ei) (val_main_v10 (F := Ideal) x ei) p k := by
  unfold val_main_v13
  refine (scatterAdd_rows_apply _ _ _ _ p k).trans ?_
  unfold nbr
  exact congrArg₂ (· + ·) rfl (Finset.sum_congr rfl fun e _ => rfl)

/-- A one per edge added up by destination: the neighbour count. -/
theorem counts_apply (p : Fin 100000) :
    val_main_v17 (F := Ideal) ei (ix1 p) = deg (val_main_v12 (F := Ideal) ei) p := by
  unfold val_main_v17
  refine (scatterAdd_scalars_apply _ _ _ _ p).trans ?_
  unfold deg
  exact congrArg₂ (· + ·) rfl (Finset.sum_congr rfl fun e _ => rfl)

/-- The count with a zero replaced by one. -/
theorem guarded_apply (p : Fin 100000) :
    val_main_v20 (F := Ideal) ei (ix1 p) = safe (deg (val_main_v12 (F := Ideal) ei) p) := by
  rw [val_main_v20_apply, val_main_v19_apply, val_main_v18_apply, val_main_cst_3_apply, val_main_call0_v0_apply,
    val_main_cst_4_apply, counts_apply]
  rfl

/-- The guarded count spread over the node's 64 columns. -/
theorem spread_apply (p : Fin 100000) (k : Fin 64) :
    val_main_v22 (F := Ideal) ei (ix2 p k) = val_main_v20 (F := Ideal) ei (ix1 p) := by
  unfold val_main_v22 val_main_v21
  exact broadcastInDim_a_ab_apply _ _ _ p k

/-- The mean of the neighbours' features. -/
theorem mean_apply (p : Fin 100000) (k : Fin 64) :
    val_main_v23 (F := Ideal) x ei (ix2 p k) = mean (val_main_v12 (F := Ideal) ei) (val_main_v10 (F := Ideal) x ei) p k := by
  rw [val_main_v23_apply, sums_apply, spread_apply, guarded_apply]
  rfl

/-- The product with the whole weight matrix, as the two 64-term sums. -/
theorem product_apply (p : Fin 100000) (q : Fin 64) :
    val_main_v25 (F := Ideal) x ei W (ix2 p q)
      = (∑ k : Fin 64, x (ix2 p k) * W (ix2 (upper k) q))
        + ∑ k : Fin 64, mean (val_main_v12 (F := Ideal) ei) (val_main_v10 (F := Ideal) x ei) p k * W (ix2 (lower k) q) := by
  unfold val_main_v25
  refine (dotGeneral_plain_apply _ rfl rfl rfl rfl rfl rfl none .single _ _ p q).trans ?_
  rw [sum_halves]
  refine congrArg₂ (· + ·) (Finset.sum_congr rfl fun k _ => ?_) (Finset.sum_congr rfl fun k _ => ?_)
  · -- a column of the first half of the joined row is the node's own feature
    refine congrArg₂ (· * ·) ?_ rfl
    unfold val_main_v24
    refine (concatCols_apply (b1 := 64) (b2 := 64) rfl _ _ _ p (upper k)).trans ?_
    unfold catCols
    rw [dif_pos (show (upper k).val < 64 from k.isLt)]
  · -- a column of the second half is the mean
    refine congrArg₂ (· * ·) ?_ rfl
    unfold val_main_v24
    refine (concatCols_apply (b1 := 64) (b2 := 64) rfl _ _ _ p (lower k)).trans ?_
    unfold catCols
    rw [dif_neg (show ¬ (lower k).val < 64 by show ¬ 64 + k.val < 64; omega)]
    refine (congrArg (val_main_v23 (F := Ideal) x ei) (congrArg (ix2 p) (Fin.ext ?_))).trans (mean_apply x ei p k)
    show 64 + k.val - 64 = k.val
    omega

/-- The bias spread down the nodes. -/
theorem bias_apply (p : Fin 100000) (q : Fin 64) : val_main_v27 (F := Ideal) b (ix2 p q) = b (ix1 q) := by
  unfold val_main_v27 val_main_v26
  exact (broadcastInDim_1b_ab_apply _ _ p q).trans (broadcastInDim_b_1b_apply _ _ (0 : Fin 1) q)

/-- THE REFERENCE'S RESULT is the layer of its arguments. -/
theorem result_eq :
    val_main_v29 (F := Ideal) x ei W b = layer x W b (val_main_v12 (F := Ideal) ei) (val_main_v10 (F := Ideal) x ei) := by
  funext i
  obtain ⟨p, q, rfl⟩ : ∃ (p : Fin 100000) (q : Fin 64), i = ix2 p q := ⟨i 0, i 1, eq_ix2 i⟩
  rw [val_main_v29_apply, val_main_v28_apply, val_main_call1_v0_apply, val_main_call1_cst_apply, product_apply, bias_apply]
  rfl

/-- The reference's run: the result at the layer of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
        = layer (m ((c.tc : Thread nD τ).loc main_arg0)) (m ((c.tc : Thread nD τ).loc main_arg2)) (m ((c.tc : Thread nD τ).loc main_arg3))
            (val_main_v12 (F := Ideal) (m ((c.tc : Thread nD τ).loc main_arg1)))
            (val_main_v10 (F := Ideal) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v29_eq (F := Ideal) _ _ _ _).trans (result_eq _ _ _ _)), (h c).2⟩)
    (Cert.ReferenceIdeal.ValueP.run (F := Ideal) m ρ)

end Cert.ReferenceIdeal.Whole

end
-- ==== Proof.lean ====
/-
  A graph layer with mean aggregation: each node's output is
      max ( x_p · W_upper  +  mean of the neighbours' features of p · W_lower  +  b ,  0 ),
  where the neighbours of p are the sources of the edges arriving at p, and a node with no neighbour has mean zero
  divided by one. (Proof/Aggregate.lean states this as one function `layer` of the arrays, index by index.)

  The kernel's program adds the edges' feature rows, each with a one joined on as a 65th column, up by destination in
  ONE accumulating scatter, cuts the result into the neighbour sums (64 columns) and the neighbour counts (the last
  column), and hands them with the node features, the two halves of the weight matrix and the bias to a kernel that, for
  a block of 5000 nodes at a time, divides, forms the two 64-term products separately, adds the bias and takes the
  maximum with zero. The reference scatters the rows and the ones separately, divides, joins the node's features and
  the mean into one row of 128 and multiplies by the whole weight matrix.

  On the exact extended reals the two agree entry by entry: a column of the joined rows lands only in its own column
  (Proof/LibScatterRows.lean), so the one scatter's columns are the two separate scatters' results; and a sum over 128
  terms is the sum of its first 64 and its last 64. Neither step needs the inputs to be finite, so the precondition is
  never opened. The idealized kernel is the kernel's own text read at exact values (nothing to preserve), and the three
  programs' runs terminate without fault with the arguments unchanged.

  Modules: Aggregate (the layer, the sum law) · LibScatterRows (the scatter at an entry) · KernelBody (what the body
  stores) · KernelHost (what the region finds) · KernelArray (blocks to the whole array, the kernel's run) ·
  ReferenceValue (the reference computes the layer, its run) · RefRun, RefRead (the reference's run and stages).
-/
import proofs.«151403_j32298154066116_2_alg».proof.Defs
import proofs.«151403_j32298154066116_2_alg».proof.Proof.Gen.Kernel
import proofs.«151403_j32298154066116_2_alg».proof.Proof.Gen.Kernel.Skeleton
import proofs.«151403_j32298154066116_2_alg».proof.Proof.Gen.Kernel.Launch
import proofs.«151403_j32298154066116_2_alg».proof.Proof.Gen.Kernel.Points
import proofs.«151403_j32298154066116_2_alg».proof.Proof.Gen.Kernel.Frame
import proofs.«151403_j32298154066116_2_alg».proof.Proof.Gen.KernelIdeal
import proofs.«151403_j32298154066116_2_alg».proof.Proof.Gen.KernelIdeal.Skeleton
import proofs.«151403_j32298154066116_2_alg».proof.Proof.Gen.KernelIdeal.Launch
import proofs.«151403_j32298154066116_2_alg».proof.Proof.Gen.KernelIdeal.Points
import proofs.«151403_j32298154066116_2_alg».proof.Proof.Gen.KernelIdeal.Frame
import proofs.«151403_j32298154066116_2_alg».proof.Proof.Gen.ReferenceIdeal
import proofs.«151403_j32298154066116_2_alg».proof.Proof.Gen.Pre_finite_inputs
import proofs.«151403_j32298154066116_2_alg».proof.Proof.Gen.KernelIdeal.Value
import proofs.«151403_j32298154066116_2_alg».proof.Proof.RefRead
import proofs.«151403_j32298154066116_2_alg».proof.Proof.KernelArray
import proofs.«151403_j32298154066116_2_alg».proof.Proof.ReferenceValue
import Idealize.ShloMosaic.Adequacy
import Idealize.ShloMosaic.Init

noncomputable section

namespace Cert.Proof

open Idealize.ShloMosaic Idealize.SL.Sem

/-- Both programs read the edges' destinations off the edge list by the same operations. -/
theorem dest_same (ei : Cert.ReferenceIdeal.S2x1250000.Idx → BitVec 32) :
    Cert.ReferenceIdeal.ReadP.val_main_v12 (F := Ideal) ei = Cert.KernelIdeal.HostSide.dest ei := rfl

/-- Both programs gather the edges' feature rows by the same operations. -/
theorem rows_same (x : FVec Ideal Cert.ReferenceIdeal.S100000x64 .f32) (ei : Cert.ReferenceIdeal.S2x1250000.Idx → BitVec 32) :
    Cert.ReferenceIdeal.ReadP.val_main_v10 (F := Ideal) x ei = Cert.KernelIdeal.HostSide.rows x ei := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both runs end at the layer of their arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run m' ρ')
  rw [(hagree c).1, (hagree c).2.1, (hagree c).2.2.1, (hagree c).2.2.2, dest_same, rows_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
